-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8192x4096 : Shape := ⟨2, ![8192, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S16384x4096 .f32) (main_arg1 : FVec F S8192x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S16384x4096 : Shape := ⟨2, ![16384, 4096]⟩
abbrev S8192x4096 : Shape := ⟨2, ![8192, 4096]⟩
abbrev S16384x8192 : Shape := ⟨2, ![16384, 8192]⟩
abbrev S1024x1024 : Shape := ⟨2, ![1024, 1024]⟩
abbrev S2048x1024 : Shape := ⟨2, ![2048, 1024]⟩
abbrev S1024x2048 : Shape := ⟨2, ![1024, 2048]⟩

abbrev nBuf : Space → Nat
  | .hbm => 8
  | .vmem => 9
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S16384x4096, .bf16⟩
  | .hbm, ⟨3, _⟩ => ⟨S16384x4096, .f32⟩
  | .hbm, ⟨4, _⟩ => ⟨S16384x4096, .f32⟩
  | .hbm, ⟨5, _⟩ => ⟨S16384x4096, .bf16⟩
  | .hbm, ⟨6, _⟩ => ⟨S8192x4096, .bf16⟩
  | .hbm, ⟨7, _⟩ => ⟨S16384x8192, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S1024x2048, .f32⟩
  | .local _ .vmem, ⟨7, _⟩ => ⟨S1024x2048, .f32⟩
  | .local _ .vmem, ⟨8, _⟩ => ⟨S1024x2048, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_15 : BitVec 32 := 0#32
  let v23 : BitVec 1 := Scalar.cmpi .ne v22 c0_i32_15
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  dot_S1024x1024_S2048x1024_S1024x2048_1_1_0_0_n_n_wf : DotDims.WF S1024x1024 S2048x1024 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S16384x4096.size a
  hwx0_1 : ∀ i : grid0.Coords, EltTy.bits .bf16 = 32 ∨ (Rect.block (s := S16384x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .bf16 = 32 ∨ (Rect.block (s := S8192x4096) S2048x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S16384x8192.size a
  hwx0_3 : ∀ i : grid0.Coords, EltTy.bits .f32 = 32 ∨ (Rect.block (s := S16384x8192) S1024x2048.size (cc0_transform_3 i) (hinb0_3 i)).WholeWords (EltTy.packing .f32)

variable [Facts₀]

def dot_S1024x1024_S2048x1024_S1024x2048_1_1_0_0_n_n : DotDims S1024x1024 S2048x1024 S1024x2048 where
  lhsContracting := [1]
  rhsContracting := [1]
  lhsNonContracting := [0]
  rhsNonContracting := [0]
  lhsBatch := []
  rhsBatch := []
  wf := dot_S1024x1024_S2048x1024_S1024x2048_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1024x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16384x4096 : Shape := ⟨2, ![16384, 4096]⟩
abbrev S8192x4096 : Shape := ⟨2, ![8192, 4096]⟩
abbrev S16384x8192 : Shape := ⟨2, ![16384, 8192]⟩

abbrev nBuf : Space → Nat
  | .hbm => 3
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8192x4096, .f32⟩
  | .hbm, ⟨2, _⟩ => ⟨S16384x8192, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S16384x4096_S8192x4096_S16384x8192_1_1_0_0_n_n_wf : DotDims.WF S16384x4096 S8192x4096 S16384x8192 [1] [1] [0] [0] [] []

variable [Facts₀]

def dot_S16384x4096_S8192x4096_S16384x8192_1_1_0_0_n_n : DotDims S16384x4096 S8192x4096 S16384x8192 where
  lhsContracting := [1]
  rhsContracting := [1]
  lhsNonContracting := [0]
  rhsNonContracting := [0]
  lhsBatch := []
  rhsBatch := []
  wf := dot_S16384x4096_S8192x4096_S16384x8192_1_1_0_0_n_n_wf

class Facts : Prop extends Facts₀ where

variable [Facts]
-- ==== Proof.Finite.lean ====
/-
  From the precondition to real numbers.

  The precondition says that every entry of x (and of P) has absolute value below +∞.  On the extended reals the
  absolute value of an entry is the larger of the entry and its negative, and +∞ is the top element; the only
  extended reals whose absolute value is not below the top are the two infinities.  So every entry of x is a real
  number, which is all the comparison needs of the precondition (P may hold anything).
-/
import proofs.«105077_j85710367359546_2_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Pipeline.Value

noncomputable section

namespace Cert.Sketch

open Idealize.ShloMosaic

/-- The pattern of +∞ denotes the top element. -/
theorem ofBits_inf : Ideal.ofBits .f32 0x7F800000#32 = ⊤ := by simp [Ideal.ofBits, Ideal.ieee]

/-- An extended real whose absolute value is below the top is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The scalar result of the precondition has one index. -/
instance : Subsingleton Cert.Pre_finite_inputs.S_.Idx := ⟨fun a b => funext fun d => d.elim0⟩

/-- Under the precondition every entry of x is a real number. -/
theorem real_of_pre [Cert.Pre_finite_inputs.Facts] (x : FVec Ideal Cert.Pre_finite_inputs.S16384x4096 .f32)
    (p : FVec Ideal Cert.Pre_finite_inputs.S8192x4096 .f32)
    (h : Cert.Pre_finite_inputs.fn (F := Ideal) x p = fun _ => 1#1) (i : Cert.Pre_finite_inputs.S16384x4096.Idx) :
    ∃ r : ℝ, x i = (r : EReal) := by
  have h0 := congrFun h ValueIdx.ix0
  dsimp only [Cert.Pre_finite_inputs.fn] at h0
  obtain ⟨hx, -⟩ := IntOp.andi_eq_one.1 h0
  have e := Host.reduce_andi_all _ _ _ _ _ hx i
  have e' : Ideal.cmp .olt (max (x i) (-(x i))) (Ideal.ofBits .f32 0x7F800000#32) = 1#1 := e
  rw [ofBits_inf] at e'
  apply real_of_abs_lt_top
  by_contra hn
  have e0 : Ideal.cmp .olt (max (x i) (-(x i))) ⊤ = 0#1 := by
    unfold Ideal.cmp
    simp [hn]
  rw [e0] at e'
  exact absurd e' (by decide)

end Cert.Sketch

end
-- ==== Proof.Spec.lean ====
/-
  The sketch as one function of the two argument arrays.

  For x : [16384, 4096] and P : [8192, 4096] the projected array has, at row n and feature f, the inner
  product of row n of x with row f of P: the sum over the 4096 input coordinates d of x[n, d] · P[f, d],
  read on the extended reals.  Nothing here mentions a program: this is the common value both sides are
  compared with.
-/
import Idealize.ShloMosaic.PureOps.Ideal
import Idealize.ShloMosaic.Lib.ValueIdx

noncomputable section

open scoped BigOperators

namespace Cert.Sketch

open Idealize.ShloMosaic Idealize.ShloMosaic.ValueIdx

/-- The shapes of the two arguments and of the result. -/
abbrev SX : Shape := ⟨2, ![16384, 4096]⟩
abbrev SP : Shape := ⟨2, ![8192, 4096]⟩
abbrev SO : Shape := ⟨2, ![16384, 8192]⟩

/-- Entry (n, f) of the projection: the inner product of row n of `x` with row f of `P` over all 4096 coordinates. -/
def proj (x : FVec Ideal SX .f32) (P : FVec Ideal SP .f32) : FVec Ideal SO .f32 :=
  fun j => ∑ d : Fin 4096, x (ix2 (j 0) d) * P (ix2 (j 1) d)

theorem proj_apply (x : FVec Ideal SX .f32) (P : FVec Ideal SP .f32) (n : Fin 16384) (f : Fin 8192) :
    proj x P (ix2 n f) = ∑ d : Fin 4096, x (ix2 n d) * P (ix2 f d) := rfl

end Cert.Sketch

end
-- ==== Proof.Algebra.lean ====
/-
  The two algebraic facts the comparison rests on, over the extended reals, with no program in sight.

  (1) A sum over the 4096 coordinates is the sum over the four tiles of 1024 consecutive coordinates of the
      tile's own sum: coordinate d is 1024·k + q for exactly one tile k < 4 and offset q < 1024.  This is a
      re-indexing of a finite sum in a commutative monoid; it holds at the infinities too.
  (2) A row whose entries are all zero contributes nothing to an inner product: 0 · p = 0 for EVERY extended
      real p (the convention 0 · ±∞ = 0), so the sum of such products is 0.  And the difference x − x is 0
      as soon as x is a real number (at ±∞ it would not be).
-/
import Idealize.ShloMosaic.PureOps.Ideal
import Idealize.ShloMosaic.Lib.ValueIdx

noncomputable section

open scoped BigOperators

namespace Cert.Sketch

/-- Coordinate `1024·k + q` of tile `k`, offset `q`. -/
abbrev coord (k : Fin 4) (q : Fin 1024) : Fin 4096 :=
  ⟨1024 * k.val + q.val, by have := k.isLt; have := q.isLt; omega⟩

/-- A sum over all 4096 coordinates, tile by tile. -/
theorem sum_tiles {M : Type*} [AddCommMonoid M] (f : Fin 4096 → M) :
    ∑ d : Fin 4096, f d = ∑ k : Fin 4, ∑ q : Fin 1024, f (coord k q) := by
  rw [← Equiv.sum_comp ((finProdFinEquiv (m := 4) (n := 1024)).trans (finCongr (by norm_num : 4 * 1024 = 4096))) f,
    Fintype.sum_prod_type]
  refine Finset.sum_congr rfl fun k _ => Finset.sum_congr rfl fun q _ => congrArg f (Fin.ext ?_)
  simp only [Equiv.trans_apply, finCongr_apply, Fin.coe_cast, finProdFinEquiv_apply_val]
  omega

/-- An inner product against the zero row vanishes, whatever the other row holds. -/
theorem sum_zero_mul {ι : Type*} (s : Finset ι) (p : ι → EReal) : ∑ q ∈ s, (0 : EReal) * p q = 0 :=
  Finset.sum_eq_zero fun _ _ => zero_mul _

/-- A real number minus itself is zero on the extended reals. -/
theorem coe_sub_self (r : ℝ) : ((r : ℝ) : EReal) - (r : EReal) = 0 := by
  rw [← EReal.coe_sub, sub_self, EReal.coe_zero]

end Cert.Sketch

end
-- ==== Proof.LibWholeStores.lean ====
/-
  Loads after stores of a WHOLE buffer.

  A kernel body that keeps an accumulator in one buffer stores and loads that buffer whole, several times in a row.
  The contents after a list of stores are read back store by store, the last store first; when the last store
  already covers the buffer the earlier ones do not matter.  The library states this for a single store; here it is
  for any number of them.
-/
import Idealize.ShloMosaic.Lib.Pipeline.Value

noncomputable section

namespace Cert.LibWholeStores

open Idealize.ShloMosaic

/-- A load of the whole buffer (the rectangle of the buffer's own sizes at zero offsets, however the zeros are
    spelt) after several stores of the whole buffer reads the LAST store's payload `w`, whatever the earlier stores
    `L` wrote (the list holds the stores last first, as the executor records them).  For `L = []` this is the
    library's `View.readCov_unit_zero`. -/
theorem readCov_last_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self .., View.mem_set_unit_zero h inb y⟩),
    View.canon_cons_unit_zero h, View.ld_unit_zero h]

end Cert.LibWholeStores

end
-- ==== Proof.Pieces.lean ====
/-
  What one grid point leaves behind, as values.

  The body keeps a [1024, 2048] accumulator between grid points.  At every point it adds to the accumulator the
  product of the point's block of the high part with the point's block of P, then the product of the block of
  the low part with the same block of P; at the first point of a run of four it first stores the zero block, and
  at the last it copies the accumulator to the output block.  Every store and load is of the WHOLE buffer, so a
  load after a store reads exactly what was stored.  Hence, whatever the float instance, writing hi·Pᵀ and lo·Pᵀ for
  the two products of the point's blocks:

    * at the first point of a run the accumulator ends at   (0 + hi·Pᵀ) + lo·Pᵀ,
    * at every other point, over what the point before left (acc), at   (acc + hi·Pᵀ) + lo·Pᵀ,
    * and at the last point the output block is that same value.

  In the statements below the inner sum is the first store's payload (`k0_pay3`: what it is given, plus hi·Pᵀ) and
  the outer sum the second store's (`k0_pay4`: what it is given, plus lo·Pᵀ); `k0_pay1` is the zero block.
-/
import proofs.«105077_j85710367359546_2_alg».proof.Proof.Gen.KernelIdeal.Frame
import proofs.«105077_j85710367359546_2_alg».proof.Proof.LibWholeStores
import Idealize.ShloMosaic.Lib.Pipeline.Value
import Idealize.ShloMosaic.Lib.Tactic

noncomputable section

namespace Cert.Sketch

open Idealize.ShloMosaic Idealize.ShloMosaic.TcCoe Idealize.SL.Sem Idealize.ShloMosaic.Tactic
open Cert.KernelIdeal Cert.KernelIdeal.Gen
open Cert.LibWholeStores (readCov_last_whole)

/-- The offsets of a whole-buffer rectangle are all zero. -/
theorem hz : (![0, 0] : Fin 2 → Nat) = fun _ => 0 := funext fun a => by fin_cases a <;> rfl

variable {F : FTy → Type} [FloatOps F]

/-- A point that is neither first nor last of its run leaves, in the accumulator holding `acc`, both products added. -/
theorem acc_mid (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : ¬cond0_1 i) (x0 : Vec F S1024x1024 .bf16) (x1 : Vec F S1024x1024 .bf16) (x2 : Vec F S2048x1024 .bf16) (acc : Vec F S1024x2048 .f32) :
    sout0_B_0 c i arg3 harg3 arg4 harg4 arg5 harg5 arg6 harg6 arg7 harg7 hc0 hc1 x0 x1 x2 acc = k0_pay4 x1 x2 (k0_pay3 x0 x2 acc) := by
  unfold sout0_B_0
  rw [View.read_writes_eq_canon _ _ _ (scover0_B_0 c i arg3 harg3 arg4 harg4 arg5 harg5 arg6 harg6 arg7 harg7 hc0 hc1 x0 x1 x2 acc)]
  unfold kernelRun0_B
  dsimp only
  sl_unfold_words
  simp only [View.canon_unit_zero (S := S1024x2048) hz, View.canon_cons_unit_zero (S := S1024x2048) hz,
    readCov_last_whole (S := S1024x2048) _ hz,
    View.readAt_eq_ld, harg3.read_unread, harg4.read_unread, harg5.read_unread, harg7.read_unread,
    View.ld_unit_zero (S := S1024x1024) hz, View.ld_unit_zero (S := S2048x1024) hz, View.ld_unit_zero (S := S1024x2048) hz]

/-- The last point of a run leaves the same in the accumulator … -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i) (x0 : Vec F S1024x1024 .bf16) (x1 : Vec F S1024x1024 .bf16) (x2 : Vec F S2048x1024 .bf16) (acc : Vec F S1024x2048 .f32) :
    sout0_C_0 c i arg3 harg3 arg4 harg4 arg5 harg5 arg6 harg6 arg7 harg7 hc0 hc1 x0 x1 x2 acc = k0_pay4 x1 x2 (k0_pay3 x0 x2 acc) := by
  unfold sout0_C_0
  rw [View.read_writes_eq_canon _ _ _ (scover0_C_0 c i arg3 harg3 arg4 harg4 arg5 harg5 arg6 harg6 arg7 harg7 hc0 hc1 x0 x1 x2 acc)]
  unfold kernelRun0_C
  dsimp only
  sl_unfold_words
  simp only [View.canon_unit_zero (S := S1024x2048) hz, View.canon_cons_unit_zero (S := S1024x2048) hz,
    readCov_last_whole (S := S1024x2048) _ hz,
    View.readAt_eq_ld, harg3.read_unread, harg4.read_unread, harg5.read_unread, harg7.read_unread,
    View.ld_unit_zero (S := S1024x1024) hz, View.ld_unit_zero (S := S2048x1024) hz, View.ld_unit_zero (S := S1024x2048) hz]

/-- … and copies it to the output block. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x2048 .f32) (harg6 : arg6.IsWhole) (arg7 : Memref sig .tc .vmem S1024x2048 .f32) (harg7 : arg7.IsWhole) (hc0 : ¬cond0_0 i) (hc1 : cond0_1 i) (x0 : Vec F S1024x1024 .bf16) (x1 : Vec F S1024x1024 .bf16) (x2 : Vec F S2048x1024 .bf16) (acc : Vec F S1024x2048 .f32) :
    out0_C_3 c i arg3 harg3 arg4 harg4 arg5 harg5 arg6 harg6 arg7 harg7 hc0 hc1 x0 x1 x2 acc = k0_pay4 x1 x2 (k0_pay3 x0 x2 acc) := by
  unfold out0_C_3
  rw [View.read_writes_eq_canon _ _ _ (cover0_C_3 c i arg3 harg3 arg4 harg4 arg5 harg5 arg6 harg6 arg7 harg7 hc0 hc1 x0 x1 x2 acc)]
  unfold kernelRun0_C
  dsimp only
  sl_unfold_words
  simp only [View.canon_unit_zero (S := S1024x2048) hz, View.canon_cons_unit_zero (S := S1024x2048) hz,
    readCov_last_whole (S := S1024x2048) _ hz,
    View.readAt_eq_ld, harg3.read_unread, harg4.read_unread, harg5.read_unread, harg7.read_unread,
    View.ld_unit_zero (S := S1024x1024) hz, View.ld_unit_zero (S := S2048x1024) hz, View.ld_unit_zero (S := S1024x2048) hz]

/-- The first point of a run stores the zero block first, so what the accumulator held before does not enter. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S2048x1024 .bf16) (harg5 : arg5.IsWhole) (arg6 : Memref sig .tc .vmem S1024x2048 .f32) (harg6 : arg6.IsWhole) (arg7 : Memref sig .tc .vmem S1024x2048 .f32) (harg7 : arg7.IsWhole) (hc0 : cond0_0 i) (hc1 : ¬cond0_1 i) (x0 : Vec F S1024x1024 .bf16) (x1 : Vec F S1024x1024 .bf16) (x2 : Vec F S2048x1024 .bf16) :
    sout0_A_0 c i arg3 harg3 arg4 harg4 arg5 harg5 arg6 harg6 arg7 harg7 hc0 hc1 x0 x1 x2 = k0_pay4 x1 x2 (k0_pay3 x0 x2 (k0_pay1 (F := F))) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  simp only [View.canon_unit_zero (S := S1024x2048) hz, View.canon_cons_unit_zero (S := S1024x2048) hz,
    readCov_last_whole (S := S1024x2048) _ hz,
    View.readAt_eq_ld, harg3.read_unread, harg4.read_unread, harg5.read_unread, harg7.read_unread,
    View.ld_unit_zero (S := S1024x1024) hz, View.ld_unit_zero (S := S2048x1024) hz, View.ld_unit_zero (S := S1024x2048) hz]

end Cert.Sketch

end
-- ==== Proof.Update.lean ====
/-
  One grid point's update of the accumulator, read at one entry, on the extended reals.

  The two stores' payloads are  acc + A·Bᵀ  with A a [1024, 1024] block and B a [2048, 1024] block: the matrix
  unit contracts the LAST axis of both operands into a zero accumulator.  At entry (r, s) of the [1024, 2048]
  block that product is the inner product of row r of A with row s of B, a plain sum of 1024 products with no
  rounding and no order.  So after one point the entry holds

      (acc[r, s] + Σ_q hi[r, q] · P[s, q]) + Σ_q lo[r, q] · P[s, q].
-/
import proofs.«105077_j85710367359546_2_alg».proof.Proof.Gen.KernelIdeal.Skeleton
import Idealize.ShloMosaic.Lib.ValueIdx
import Idealize.ShloMosaic.Lib.Pipeline.Value
import Idealize.ShloMosaic.PureOps.Ideal.Laws
import proofs.«105077_j85710367359546_2_alg».proof.Proof.Algebra

noncomputable section

open scoped BigOperators

namespace Cert.Sketch

open Idealize.ShloMosaic Idealize.ShloMosaic.ValueIdx
open Cert.KernelIdeal Cert.KernelIdeal.Gen

/-! ## Where the product reads its operands: (r, s) and contraction index q read A at (r, q) and B at (s, q) -/

theorem lhs_row (i : S1024x2048.Idx) (q : dot_S1024x1024_S2048x1024_S1024x2048_1_1_0_0_n_n.contr.Idx) :
    (dot_S1024x1024_S2048x1024_S1024x2048_1_1_0_0_n_n.lhsIdx i q 0).val = (i 0).val := by
  unfold DotDims.lhsIdx
  rw [dif_neg (show ¬(0 : Fin S1024x1024.rank) ∈ dot_S1024x1024_S2048x1024_S1024x2048_1_1_0_0_n_n.lhsBatch by decide), dif_pos (show (0 : Fin S1024x1024.rank) ∈ dot_S1024x1024_S2048x1024_S1024x2048_1_1_0_0_n_n.lhsNonContracting by decide)]
  rfl
theorem lhs_col (i : S1024x2048.Idx) (q : dot_S1024x1024_S2048x1024_S1024x2048_1_1_0_0_n_n.contr.Idx) :
    (dot_S1024x1024_S2048x1024_S1024x2048_1_1_0_0_n_n.lhsIdx i q 1).val = (q ⟨0, by decide⟩).val :=
  dot_S1024x1024_S2048x1024_S1024x2048_1_1_0_0_n_n.lhsIdx_val_of_single rfl i q
theorem rhs_row (i : S1024x2048.Idx) (q : dot_S1024x1024_S2048x1024_S1024x2048_1_1_0_0_n_n.contr.Idx) :
    (dot_S1024x1024_S2048x1024_S1024x2048_1_1_0_0_n_n.rhsIdx i q 0).val = (i 1).val := by
  unfold DotDims.rhsIdx
  rw [dif_neg (show ¬(0 : Fin S2048x1024.rank) ∈ dot_S1024x1024_S2048x1024_S1024x2048_1_1_0_0_n_n.rhsBatch by decide), dif_pos (show (0 : Fin S2048x1024.rank) ∈ dot_S1024x1024_S2048x1024_S1024x2048_1_1_0_0_n_n.rhsNonContracting by decide)]
  rfl
theorem rhs_col (i : S1024x2048.Idx) (q : dot_S1024x1024_S2048x1024_S1024x2048_1_1_0_0_n_n.contr.Idx) :
    (dot_S1024x1024_S2048x1024_S1024x2048_1_1_0_0_n_n.rhsIdx i q 1).val = (q ⟨0, by decide⟩).val :=
  dot_S1024x1024_S2048x1024_S1024x2048_1_1_0_0_n_n.rhsIdx_val_of_single rfl i q

/-- The block product into the zero accumulator, at (r, s): row r of `a` against row s of `b`. -/
theorem block_product_apply (a : FVec Ideal S1024x1024 .bf16) (b : FVec Ideal S2048x1024 .bf16) (r : Fin 1024) (s : Fin 2048) :
    matmul dot_S1024x1024_S2048x1024_S1024x2048_1_1_0_0_n_n none a b (constant (F := Ideal) S1024x2048 .f32 0x00000000#32) (ix2 r s)
      = ∑ q : Fin 1024, a (ix2 r q) * b (ix2 s q) := by
  simp only [matmul]
  rw [Ideal.matmul_constant_zero_apply, ← Equiv.sum_comp (ValueIdx.contrEquiv1 dot_S1024x1024_S2048x1024_S1024x2048_1_1_0_0_n_n 1024 rfl rfl).symm]
  refine Finset.sum_congr rfl fun k _ => ?_
  have hk := ValueIdx.contrEquiv1_symm_val dot_S1024x1024_S2048x1024_S1024x2048_1_1_0_0_n_n 1024 rfl rfl k
  have el : dot_S1024x1024_S2048x1024_S1024x2048_1_1_0_0_n_n.lhsIdx (ix2 r s) ((ValueIdx.contrEquiv1 dot_S1024x1024_S2048x1024_S1024x2048_1_1_0_0_n_n 1024 rfl rfl).symm k) = ix2 r k := funext fun a => Fin.ext (by
    match a with
    | ⟨0, _⟩ => exact lhs_row _ _
    | ⟨1, _⟩ => exact (lhs_col _ _).trans hk)
  have er : dot_S1024x1024_S2048x1024_S1024x2048_1_1_0_0_n_n.rhsIdx (ix2 r s) ((ValueIdx.contrEquiv1 dot_S1024x1024_S2048x1024_S1024x2048_1_1_0_0_n_n 1024 rfl rfl).symm k) = ix2 s k := funext fun a => Fin.ext (by
    match a with
    | ⟨0, _⟩ => exact rhs_row _ _
    | ⟨1, _⟩ => exact (rhs_col _ _).trans hk)
  rw [el, er]

/-- The block the first point of a run stores first is zero everywhere. -/
theorem zero_block_apply (j : S1024x2048.Idx) : k0_pay1 (F := Ideal) j = 0 := by
  unfold k0_pay1
  rw [shapeCast_self]
  exact Ideal.ofBits_zero_f32

/-- One point's update at entry (r, s): what the accumulator held there, plus the two inner products. -/
theorem update_apply (hi lo : FVec Ideal S1024x1024 .bf16) (p : FVec Ideal S2048x1024 .bf16) (acc : FVec Ideal S1024x2048 .f32)
    (r : Fin 1024) (s : Fin 2048) :
    k0_pay4 lo p (k0_pay3 hi p acc) (ix2 r s)
      = (acc (ix2 r s) + ∑ q : Fin 1024, hi (ix2 r q) * p (ix2 s q)) + ∑ q : Fin 1024, lo (ix2 r q) * p (ix2 s q) := by
  unfold k0_pay4 k0_pay3 k0_pay2
  simp only [shapeCast_self]
  rw [addf_apply, addf_apply, block_product_apply, block_product_apply]

/-- The same when the low block is zero: its inner product vanishes (0 · p = 0 for every extended real p), and the
    entry gains exactly the inner product of the high block's row with P's row — here with the two blocks' entries
    named (`a`, `b`: what the caller knows them to be). -/
theorem update_apply_of (hi lo : FVec Ideal S1024x1024 .bf16) (p : FVec Ideal S2048x1024 .bf16) (acc : FVec Ideal S1024x2048 .f32)
    (a : Fin 1024 → Fin 1024 → EReal) (b : Fin 2048 → Fin 1024 → EReal)
    (hhi : ∀ r q, hi (ix2 r q) = a r q) (hlo : ∀ r q, lo (ix2 r q) = 0) (hp : ∀ s q, p (ix2 s q) = b s q)
    (r : Fin 1024) (s : Fin 2048) :
    k0_pay4 lo p (k0_pay3 hi p acc) (ix2 r s) = acc (ix2 r s) + ∑ q : Fin 1024, a r q * b s q := by
  have h1 : ∑ q : Fin 1024, hi (ix2 r q) * p (ix2 s q) = ∑ q : Fin 1024, a r q * b s q :=
    Finset.sum_congr rfl fun q _ => by rw [hhi, hp]
  have h2 : ∑ q : Fin 1024, lo (ix2 r q) * p (ix2 s q) = 0 :=
    (Finset.sum_congr rfl fun q _ => by rw [hlo]).trans (sum_zero_mul Finset.univ fun q => p (ix2 s q))
  rw [update_apply, h1, h2, add_zero]

end Cert.Sketch

end
-- ==== Proof.Blocks.lean ====
/-
  Where a grid point's blocks sit in the arrays, and what the arrays hold when the call starts.

  The grid is 16 × 4 × 4, run in row-major order, so point t has row tile t / 16, feature tile (t / 4) % 4 and
  coordinate tile t % 4.  The high and the low part of x are cut in [1024, 1024] blocks at (row tile, coordinate
  tile), P in [2048, 1024] blocks at (feature tile, coordinate tile), the result in [1024, 2048] blocks at (row
  tile, feature tile): entry (r, q) of a block is the array's entry at block index × block size + (r, q).

  Before the call the host computes, on the extended reals where a change of float format is the identity: the
  high part, which is x itself; the low part x − x; and P unchanged.
-/
import proofs.«105077_j85710367359546_2_alg».proof.Proof.Gen.KernelIdeal.Frame
import proofs.«105077_j85710367359546_2_alg».proof.Proof.Algebra
import Idealize.ShloMosaic.Lib.ValueIdx
import Idealize.ShloMosaic.Lib.Pipeline.Value
import Idealize.ShloMosaic.Lib.StableHlo.Run

noncomputable section

namespace Cert.Sketch

open Idealize.ShloMosaic Idealize.ShloMosaic.TcCoe Idealize.SL.Sem Idealize.ShloMosaic.ValueIdx
open Cert.KernelIdeal Cert.KernelIdeal.Gen

/-- The grid has 256 points. -/
theorem lt_256 (t : Fin cfg0.N) : t.val < 256 := lt_of_lt_of_eq t.isLt (show cfg0.N = 256 from N_0)

/-- Row `r` of point `t`'s row tile, in the array. -/
abbrev rowAt (t : Fin cfg0.N) (r : Fin 1024) : Fin 16384 :=
  ⟨1024 * (t.val / 16) + r.val, by have := lt_256 t; have := r.isLt; omega⟩
/-- Feature `s` of point `t`'s feature tile, in the array. -/
abbrev featAt (t : Fin cfg0.N) (s : Fin 2048) : Fin 8192 :=
  ⟨2048 * (t.val / 4 % 4) + s.val, by have := s.isLt; omega⟩
/-- Coordinate `q` of point `t`'s coordinate tile, in the array. -/
abbrev coordAt (t : Fin cfg0.N) (q : Fin 1024) : Fin 4096 :=
  ⟨1024 * (t.val % 4) + q.val, by have := q.isLt; omega⟩

/-- The printed index maps, decided over the grid. -/
theorem index_facts : ∀ t : Fin cfg0.N,
    win0_0.index t (0 : Fin 2) = t.val / 16 ∧ win0_0.index t (1 : Fin 2) = t.val % 4
    ∧ win0_1.index t (0 : Fin 2) = t.val / 16 ∧ win0_1.index t (1 : Fin 2) = t.val % 4
    ∧ win0_2.index t (0 : Fin 2) = t.val / 4 % 4 ∧ win0_2.index t (1 : Fin 2) = t.val % 4
    ∧ win0_3.index t (0 : Fin 2) = t.val / 16 ∧ win0_3.index t (1 : Fin 2) = t.val / 4 % 4 :=
  (by decide +kernel : ∀ t : Fin grid0.N, _)

variable {F : FTy → Type} [FloatOps F]
variable (m : (ℓ : Loc nD τ sig) → Buf (Elt F) ℓ)

/-- The high part's block at point `t`, entry (r, q). -/
theorem hi_block_apply (c : Dev nD) (t : Fin cfg0.N) (r q : Fin 1024) :
    (iblk m c 0 t : FVec F S1024x1024 .bf16) (ix2 r q)
      = (V m c main_v0 : FVec F S16384x4096 .bf16) (ix2 (rowAt t r) (coordAt t q)) := by
  obtain ⟨e0, e1, -⟩ := index_facts t
  unfold iblk
  rw [View.read_apply]
  show V m c main_v0 _ = V m c main_v0 _
  congr 1
  funext a
  apply Fin.ext
  match a with
  | ⟨0, _⟩ => show win0_0.index t (0 : Fin 2) * 1024 + 1 * r.val = 1024 * (t.val / 16) + r.val; rw [e0]; omega
  | ⟨1, _⟩ => show win0_0.index t (1 : Fin 2) * 1024 + 1 * q.val = 1024 * (t.val % 4) + q.val; rw [e1]; omega

/-- The low part's block at point `t`, entry (r, q). -/
theorem lo_block_apply (c : Dev nD) (t : Fin cfg0.N) (r q : Fin 1024) :
    (iblk m c 1 t : FVec F S1024x1024 .bf16) (ix2 r q)
      = (V m c main_v3 : FVec F S16384x4096 .bf16) (ix2 (rowAt t r) (coordAt t q)) := by
  obtain ⟨-, -, e0, e1, -⟩ := index_facts t
  unfold iblk
  rw [View.read_apply]
  show V m c main_v3 _ = V m c main_v3 _
  congr 1
  funext a
  apply Fin.ext
  match a with
  | ⟨0, _⟩ => show win0_1.index t (0 : Fin 2) * 1024 + 1 * r.val = 1024 * (t.val / 16) + r.val; rw [e0]; omega
  | ⟨1, _⟩ => show win0_1.index t (1 : Fin 2) * 1024 + 1 * q.val = 1024 * (t.val % 4) + q.val; rw [e1]; omega

/-- P's block at point `t`, entry (s, q). -/
theorem p_block_apply (c : Dev nD) (t : Fin cfg0.N) (s : Fin 2048) (q : Fin 1024) :
    (iblk m c 2 t : FVec F S2048x1024 .bf16) (ix2 s q)
      = (V m c main_v4 : FVec F S8192x4096 .bf16) (ix2 (featAt t s) (coordAt t q)) := by
  obtain ⟨-, -, -, -, e0, e1, -⟩ := index_facts t
  unfold iblk
  rw [View.read_apply]
  show V m c main_v4 _ = V m c main_v4 _
  congr 1
  funext a
  apply Fin.ext
  match a with
  | ⟨0, _⟩ => show win0_2.index t (0 : Fin 2) * 2048 + 1 * s.val = 2048 * (t.val / 4 % 4) + s.val; rw [e0]; omega
  | ⟨1, _⟩ => show win0_2.index t (1 : Fin 2) * 1024 + 1 * q.val = 1024 * (t.val % 4) + q.val; rw [e1]; omega

end Cert.Sketch

/-! ## What the host operations before the call leave in the three staged arrays, on the extended reals -/

namespace Cert.Sketch

open Idealize.ShloMosaic Idealize.ShloMosaic.TcCoe Idealize.SL.Sem
open Cert.KernelIdeal Cert.KernelIdeal.Gen

variable (m : (ℓ : Loc nD τ sig) → Buf (Elt Ideal) ℓ)

/-- The argument x on core `c`, as an array of extended reals. -/
abbrev xOf (c : Dev nD) : S16384x4096.Idx → EReal := m ((c : Thread nD τ).loc main_arg0)
/-- The argument P on core `c`, as an array of extended reals. -/
abbrev pOf (c : Dev nD) : S8192x4096.Idx → EReal := m ((c : Thread nD τ).loc main_arg1)

/-- The high part is x: narrowing the format changes nothing. -/
theorem hi_array (c : Dev nD) :
    (V m c main_v0 : S16384x4096.Idx → EReal) = xOf m c := by
  dsimp only [Gen.V, Gen.hostOps0]; after_results; rfl

/-- The low part is x − x, entry by entry. -/
theorem lo_array (c : Dev nD) :
    (V m c main_v3 : S16384x4096.Idx → EReal)
      = fun i => xOf m c i - xOf m c i := by
  dsimp only [Gen.V, Gen.hostOps0]; after_results; rfl

/-- P is staged unchanged. -/
theorem p_array (c : Dev nD) :
    (V m c main_v4 : S8192x4096.Idx → EReal) = pOf m c := by
  dsimp only [Gen.V, Gen.hostOps0]; after_results; rfl

end Cert.Sketch

end
-- ==== Proof.Fold.lean ====
/-
  The accumulator over a run of four grid points, and what the run's last point writes out.

  Fix a core, and write x and P for the two arguments there.  Under the precondition every entry of x is a real
  number, so the low part x − x is zero and its products vanish; the high part is x itself.  Hence each grid point
  t adds to entry (r, s) of the accumulator exactly its own tile's share of an inner product,

      term t r s  =  Σ_{q < 1024}  x[row tile's row r, tile's coordinate q] · P[feature tile's row s, tile's coordinate q],

  the first point of a run starting from zero.  The four points of a run share the row tile and the feature tile and
  go through the four coordinate tiles in order, so after the last of them the entry holds the sum of four such
  shares — the inner product over all 4096 coordinates, tile by tile — and that is what the point copies out.
-/
import proofs.«105077_j85710367359546_2_alg».proof.Proof.Spec
import proofs.«105077_j85710367359546_2_alg».proof.Proof.Algebra
import proofs.«105077_j85710367359546_2_alg».proof.Proof.Pieces
import proofs.«105077_j85710367359546_2_alg».proof.Proof.Update
import proofs.«105077_j85710367359546_2_alg».proof.Proof.Blocks
import proofs.«105077_j85710367359546_2_alg».proof.Proof.Gen.KernelIdeal.Value
import Idealize.ShloMosaic.Lib.Pipeline.Value

noncomputable section

open scoped BigOperators

namespace Cert.Sketch

open Idealize.ShloMosaic Idealize.ShloMosaic.TcCoe Idealize.SL.Sem Idealize.ShloMosaic.ValueIdx
open Cert.KernelIdeal Cert.KernelIdeal.Gen
open Cert.KernelIdeal.Value (scAt0_0 soutsAt0_0_eq)

variable (m : (ℓ : Loc nD τ sig) → Buf (Elt Ideal) ℓ)

/-- Grid point `t`'s share of entry (r, s): the inner product over the point's own 1024 coordinates. -/
def term (c : Dev nD) (t : Fin cfg0.N) (r : Fin 1024) (s : Fin 2048) : EReal :=
  ∑ q : Fin 1024, xOf m c (ix2 (rowAt t r) (coordAt t q)) * pOf m c (ix2 (featAt t s) (coordAt t q))

/-- The same as a function of the point's number and the block index (zero past the grid: never used there). -/
def addend (c : Dev nD) (n : ℕ) (j : S1024x2048.Idx) : EReal :=
  if h : n < cfg0.N then term m c ⟨n, h⟩ (j 0) (j 1) else 0

theorem addend_apply (c : Dev nD) (n : ℕ) (hb : n < cfg0.N) (r : Fin 1024) (s : Fin 2048) :
    addend m c n (ix2 r s) = term m c ⟨n, hb⟩ r s := by
  unfold addend
  rw [dif_pos hb]

/-- x's entries are real numbers on core `c` (what the precondition gives). -/
abbrev RealEntries (c : Dev nD) : Prop := ∀ i : S16384x4096.Idx, ∃ x : ℝ, xOf m c i = (x : EReal)

/-- ONE POINT: over an accumulator `acc`, the two stores leave entry (r, s) at `acc`'s entry plus the point's share. -/
theorem point_update (c : Dev nD) (hx : RealEntries m c) (t : Fin cfg0.N) (acc : FVec Ideal S1024x2048 .f32)
    (r : Fin 1024) (s : Fin 2048) :
    k0_pay4 (iblk m c 1 t) (iblk m c 2 t) (k0_pay3 (iblk m c 0 t) (iblk m c 2 t) acc) (ix2 r s)
      = acc (ix2 r s) + term m c t r s := by
  refine update_apply_of (iblk m c 0 t) (iblk m c 1 t) (iblk m c 2 t) acc
    (fun r q => xOf m c (ix2 (rowAt t r) (coordAt t q))) (fun s q => pOf m c (ix2 (featAt t s) (coordAt t q))) ?_ ?_ ?_ r s
  · intro r q
    rw [hi_block_apply, hi_array]
  · intro r q
    rw [lo_block_apply, lo_array]
    obtain ⟨x, hxv⟩ := hx (ix2 (rowAt t r) (coordAt t q))
    show xOf m c (ix2 (rowAt t r) (coordAt t q)) - xOf m c (ix2 (rowAt t r) (coordAt t q)) = 0
    rw [hxv]
    exact coe_sub_self x
  · intro s q
    rw [p_block_apply, p_array]

/-- The first point of a run: the accumulator starts from the zero block. -/
theorem scratch_first (c : Dev nD) (hx : RealEntries m c) (n : ℕ) (hb : n < cfg0.N) (h0 : n % 4 = 0)
    (acc : Vec Ideal S1024x2048 .f32) (r : Fin 1024) (s : Fin 2048) :
    scAt0_0 m c n hb acc (ix2 r s) = 0 + term m c ⟨n, hb⟩ r s := by
  have h1 : ¬n % 4 = 3 := by omega
  unfold scAt0_0
  rw [dif_pos h0, dif_neg h1]
  refine (congrFun (acc_first c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N))) (ix2 r s)).trans ?_
  rw [point_update m c hx (⟨n, hb⟩ : Fin cfg0.N) _ r s, zero_block_apply]

/-- Every other point of a run: over what the point before left. -/
theorem scratch_later (c : Dev nD) (hx : RealEntries m c) (n : ℕ) (hb : n < cfg0.N) (h0 : ¬n % 4 = 0)
    (acc : Vec Ideal S1024x2048 .f32) (r : Fin 1024) (s : Fin 2048) :
    scAt0_0 m c n hb acc (ix2 r s) = acc (ix2 r s) + term m c ⟨n, hb⟩ r s := by
  unfold scAt0_0
  rw [dif_neg h0]
  by_cases h1 : n % 4 = 3
  · rw [dif_pos h1]
    refine (congrFun (acc_last c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) acc) (ix2 r s)).trans ?_
    exact point_update m c hx (⟨n, hb⟩ : Fin cfg0.N) acc r s
  · rw [dif_neg h1]
    refine (congrFun (acc_mid c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) acc) (ix2 r s)).trans ?_
    exact point_update m c hx (⟨n, hb⟩ : Fin cfg0.N) acc r s

/-- AFTER ANY POINT the accumulator's entry is the sum of the shares of its run's points so far. -/
theorem scratch_after (c : Dev nD) (hx : RealEntries m c) (t : Fin cfg0.N) (r : Fin 1024) (s : Fin 2048) :
    (outsAt0 m c t.val t.isLt).2 (ix2 r s)
      = 0 + ∑ k ∈ Finset.range (t.val % 4 + 1), addend m c (4 * (t.val / 4) + k) (ix2 r s) := by
  have key := Pipeline.accAt_add_apply (ι := S1024x2048.Idx) (β := EReal) (N := cfg0.N)
    (fun n h => scAt0_0 m c n h (VS0_0.read (Elt Ideal) VS0_0.junk)) (scAt0_0 m c) (fun _ => 0) (addend m c)
    (4 * (t.val / 4)) 3
    (fun h j => by
      obtain ⟨r, s, rfl⟩ : ∃ (r : Fin 1024) (s : Fin 2048), j = ix2 r s := ⟨j 0, j 1, eq_ix2 j⟩
      rw [addend_apply m c _ h]
      exact scratch_first m c hx _ h (by omega) _ r s)
    (fun n h acc j hlt hle => by
      obtain ⟨r, s, rfl⟩ : ∃ (r : Fin 1024) (s : Fin 2048), j = ix2 r s := ⟨j 0, j 1, eq_ix2 j⟩
      rw [addend_apply m c _ h]
      exact scratch_later m c hx n h (by omega) acc r s)
    (t.val % 4) (by omega)
  rw [soutsAt0_0_eq m c t]
  exact key _ (ix2 r s)

/-- THE LAST POINT OF A RUN copies the accumulator out, and by then it holds the whole inner product. -/
theorem flush_value (c : Dev nD) (hx : RealEntries m c) (t : Fin cfg0.N) (h3 : t.val % 4 = 3) (r : Fin 1024) (s : Fin 2048) :
    (outsAt0 m c t.val t.isLt).1 (ix2 r s) = proj (xOf m c) (pOf m c) (ix2 (rowAt t r) (featAt t s)) := by
  have h0 : ¬t.val % 4 = 0 := by omega
  have hN := lt_256 t
  have e12 : (outsAt0 m c t.val t.isLt).1 = (outsAt0 m c t.val t.isLt).2 := by
    rw [outsAt0_C m c t h0 h3]
    dsimp only
    exact (out_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t)
        (outsAt0 m c (t.val - 1) (Nat.lt_of_le_of_lt (Nat.sub_le _ _) t.isLt)).2).trans
      (acc_last c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h3) (iblk m c 0 t) (iblk m c 1 t) (iblk m c 2 t)
        (outsAt0 m c (t.val - 1) (Nat.lt_of_le_of_lt (Nat.sub_le _ _) t.isLt)).2).symm
  rw [e12, scratch_after m c hx t r s, h3, zero_add, proj_apply, sum_tiles, Finset.sum_range]
  refine Finset.sum_congr rfl fun k _ => ?_
  have hk := k.isLt
  have hb : 4 * (t.val / 4) + k.val < cfg0.N :=
    lt_of_lt_of_eq (by omega : 4 * (t.val / 4) + k.val < 256) (show cfg0.N = 256 from N_0).symm
  rw [addend_apply m c _ hb]
  unfold term
  refine Finset.sum_congr rfl fun q _ => ?_
  have er : rowAt ⟨4 * (t.val / 4) + k.val, hb⟩ r = rowAt t r :=
    Fin.ext (by show 1024 * ((4 * (t.val / 4) + k.val) / 16) + r.val = 1024 * (t.val / 16) + r.val; omega)
  have ef : featAt ⟨4 * (t.val / 4) + k.val, hb⟩ s = featAt t s :=
    Fin.ext (by show 2048 * ((4 * (t.val / 4) + k.val) / 4 % 4) + s.val = 2048 * (t.val / 4 % 4) + s.val; omega)
  have ec : coordAt ⟨4 * (t.val / 4) + k.val, hb⟩ q = coord k q :=
    Fin.ext (by show 1024 * ((4 * (t.val / 4) + k.val) % 4) + q.val = 1024 * k.val + q.val; omega)
  rw [er, ef, ec]

end Cert.Sketch

end
-- ==== Proof.Final.lean ====
/-
  From blocks to the array: after the run the result array is the projection.

  The result is cut in [1024, 2048] blocks at (row tile, feature tile).  A block is written back once, by the last
  point of its run of four (the points t with t % 4 = 3), and what that point writes is the block of the projection
  at its row tile and feature tile.  Every entry (n, f) of the array lies in exactly such a block — row tile
  n / 1024, feature tile f / 2048, written by point 16·(n / 1024) + 4·(f / 2048) + 3 — so the written blocks cover
  the array and it ends holding the projection of x and P, entry by entry.
-/
import proofs.«105077_j85710367359546_2_alg».proof.Proof.Fold
import proofs.«105077_j85710367359546_2_alg».proof.Proof.Gen.KernelIdeal.Value
import proofs.«105077_j85710367359546_2_alg».proof.Proof.Gen.KernelIdeal.Points
import Idealize.ShloMosaic.Lib.Pipeline.Value

noncomputable section

namespace Cert.Sketch

open Idealize.ShloMosaic Idealize.ShloMosaic.TcCoe Idealize.SL.Sem Idealize.ShloMosaic.ValueIdx
open Idealize.ShloMosaic.Pipeline (Dat)
open Cert.KernelIdeal Cert.KernelIdeal.Gen

/-- A [1024, 2048] block whose entry (r, s) is `G` at (row tile's row r, feature tile's row s) is, read through the
    result window at point `t`, the block of `G` there. -/
theorem cut_eq_read (t : Fin cfg0.N) (W : FVec Ideal S1024x2048 .f32) (G : S16384x8192.Idx → EReal)
    (hW : ∀ (r : Fin 1024) (s : Fin 2048), W (ix2 r s) = G (ix2 (rowAt t r) (featAt t s))) :
    (cfg0.win 3).cut (grid0.coords t) W = ((cfg0.win 3).blk t).view.read (Elt Ideal) G := by
  obtain ⟨-, -, -, -, -, -, e0, e1⟩ := index_facts t
  funext y
  have h0 : (y 0).val < 1024 := (y 0).isLt
  have h1 : (y 1).val < 2048 := (y 1).isLt
  have ey : (cfg0.win 3).xinj (grid0.coords t) y = ix2 ⟨(y 0).val, h0⟩ ⟨(y 1).val, h1⟩ :=
    funext fun a => Fin.ext (by match a with | ⟨0, _⟩ => rfl | ⟨1, _⟩ => rfl)
  rw [View.read_apply]
  show W ((cfg0.win 3).xinj (grid0.coords t) y) = G (((cfg0.win 3).blk t).view.emb y)
  rw [ey, hW]
  congr 1
  funext a
  apply Fin.ext
  match a with
  | ⟨0, _⟩ => show 1024 * (t.val / 16) + (y 0).val = win0_3.index t (0 : Fin 2) * 1024 + 1 * (y 0).val; rw [e0]; omega
  | ⟨1, _⟩ => show 2048 * (t.val / 4 % 4) + (y 1).val = win0_3.index t (1 : Fin 2) * 2048 + 1 * (y 1).val; rw [e1]; omega

variable (m : (ℓ : Loc nD τ sig) → Buf (Elt Ideal) ℓ) (ρ : Dev nD → PrngReg)

/-- WHAT A WRITING POINT WRITES BACK is its block of the projection. -/
theorem flushed_eq (c : Dev nD) (hx : RealEntries m c) (t : Fin cfg0.N) (hf : (cfg0.win 3).flush t = true) :
    (dats m 0 c).flushed 3 t = ((cfg0.win 3).blk t).view.read (Elt Ideal) (proj (xOf m c) (pOf m c)) := by
  have h3 : t.val % 4 = 3 := (flush0_3 t).mp hf
  rw [Cert.KernelIdeal.Value.flushed3]
  exact cut_eq_read t (outsAt0 m c t.val t.isLt).1 (proj (xOf m c) (pOf m c)) (fun r s => flush_value m c hx t h3 r s)

/-- An entry of the array is in point `t`'s block iff each coordinate is in the block's range on its axis. -/
theorem mem_blk (t : Fin cfg0.N) (i : S16384x8192.Idx) :
    i ∈ ((cfg0.win 3).blk t).view.set ↔ ∀ a : Fin 2, win0_3.index t a * S1024x2048.size a ≤ (i a).val
      ∧ (i a).val < win0_3.index t a * S1024x2048.size a + S1024x2048.size a := by
  show i ∈ ((View.whole main_v5).slice (win0_3.rect t)).set ↔ _
  rw [View.set_slice_whole, Rect.mem_set_unit]
  exact Iff.rfl

/-- Every entry of the array is in the block of some writing point. -/
theorem covered (i : S16384x8192.Idx) :
    ∃ t : Fin cfg0.N, (cfg0.win 3).flush t = true ∧ i ∈ ((cfg0.win 3).blk t).view.set := by
  have hi0 : (i 0).val < 16384 := (i 0).isLt
  have hi1 : (i 1).val < 8192 := (i 1).isLt
  have hN : cfg0.N = 256 := N_0
  refine ⟨⟨16 * ((i 0).val / 1024) + 4 * ((i 1).val / 2048) + 3, lt_of_lt_of_eq (by omega : 16 * ((i 0).val / 1024) + 4 * ((i 1).val / 2048) + 3 < 256) hN.symm⟩, ?_, ?_⟩
  · exact (flush0_3 _).mpr (by show (16 * ((i 0).val / 1024) + 4 * ((i 1).val / 2048) + 3) % 4 = 3; omega)
  · rw [mem_blk]
    obtain ⟨-, -, -, -, -, -, e0, e1⟩ := index_facts ⟨16 * ((i 0).val / 1024) + 4 * ((i 1).val / 2048) + 3, lt_of_lt_of_eq (by omega : 16 * ((i 0).val / 1024) + 4 * ((i 1).val / 2048) + 3 < 256) hN.symm⟩
    intro a
    match a with
    | ⟨0, _⟩ =>
      show win0_3.index _ (0 : Fin 2) * 1024 ≤ (i 0).val ∧ (i 0).val < win0_3.index _ (0 : Fin 2) * 1024 + 1024
      rw [e0]
      show (16 * ((i 0).val / 1024) + 4 * ((i 1).val / 2048) + 3) / 16 * 1024 ≤ (i 0).val
        ∧ (i 0).val < (16 * ((i 0).val / 1024) + 4 * ((i 1).val / 2048) + 3) / 16 * 1024 + 1024
      omega
    | ⟨1, _⟩ =>
      show win0_3.index _ (1 : Fin 2) * 2048 ≤ (i 1).val ∧ (i 1).val < win0_3.index _ (1 : Fin 2) * 2048 + 2048
      rw [e1]
      show (16 * ((i 0).val / 1024) + 4 * ((i 1).val / 2048) + 3) / 4 % 4 * 2048 ≤ (i 1).val
        ∧ (i 1).val < (16 * ((i 0).val / 1024) + 4 * ((i 1).val / 2048) + 3) / 4 % 4 * 2048 + 2048
      omega

/-- THE ARRAY after the run is the projection. -/
theorem final (c : Dev nD) (hx : RealEntries m c) :
    (dats m 0 c).arrAt 3 cfg0.N = proj (xOf m c) (pOf m c) :=
  (dats m 0 c).arrAt_eq_of_cover 3 (proj (xOf m c) (pOf m c)) (fun t hf => flushed_eq m c hx t hf) covered

/-- THE KERNEL'S RUN, read: the result array at the projection of the two arguments, the arguments unchanged. -/
theorem kernel_run (hx : ∀ c : Dev nD, RealEntries m c) :
    θ_run defs (onTc (τ := τ) (main (F := Ideal))) ⟨m, fun _ => 0, ρ⟩ fun r => ∀ c : Dev nD,
      r.2.mem ((c : Thread nD τ).loc main_v5) = proj (xOf m c) (pOf m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hx c)), (h c).2⟩)
    (Cert.KernelIdeal.Value.run_blocks m ρ)

end Cert.Sketch

end
-- ==== Proof.Reference.lean ====
/-
  The reference computes the projection.

  jnp's einsum 'nd,fd->nf' is one contraction of the last axis of x with the last axis of P, with no batch axis.  On
  the extended reals its entry (n, f) is the sum over the 4096 coordinates d of x[n, d] · P[f, d], with no rounding
  and no order of summation left in it: the very function the kernel is compared with.
-/
import proofs.«105077_j85710367359546_2_alg».proof.Proof.Spec
import proofs.«105077_j85710367359546_2_alg».proof.Proof.Gen.ReferenceIdeal.Read
import Idealize.ShloMosaic.Lib.ValueIdx

noncomputable section

open scoped BigOperators

namespace Cert.Sketch

open Idealize.ShloMosaic Idealize.ShloMosaic.ValueIdx

/-- The reference's one operation, read entry by entry, is the projection. -/
theorem reference_eq_proj (x : FVec Ideal SX .f32) (p : FVec Ideal SP .f32) :
    Cert.ReferenceIdeal.Read.val_main_v0 (F := Ideal) x p = proj x p := by
  funext i
  rw [Cert.ReferenceIdeal.Read.val_main_v0_apply]
  unfold proj
  refine Finset.sum_congr rfl fun k _ => ?_
  have el : Cert.ReferenceIdeal.Read.lidx_main_v0 i k = ix2 (i 0) k :=
    funext fun a => Fin.ext (by match a with | ⟨0, _⟩ => rfl | ⟨1, _⟩ => rfl)
  have er : Cert.ReferenceIdeal.Read.ridx_main_v0 i k = ix2 (i 1) k :=
    funext fun a => Fin.ext (by match a with | ⟨0, _⟩ => rfl | ⟨1, _⟩ => rfl)
  rw [el, er]
  rfl

end Cert.Sketch

end
-- ==== Proof.lean ====
/-
  A structured-sparse random projection, out = x · Pᵀ with x : [16384, 4096] and P : [8192, 4096], computed by a
  tiled kernel against jnp's einsum.

  The kernel splits x into a high part (x narrowed to bf16) and a low part (x minus the high part, narrowed again),
  and accumulates hi·Pᵀ + lo·Pᵀ over four tiles of 1024 coordinates into a [1024, 2048] block per (row tile, feature
  tile).  On the extended reals a change of float format is the identity, so the high part IS x and the low part is
  x − x; under the precondition every entry of x is a real number, so the low part is zero and its products vanish
  (0 · p = 0 for every extended real p — nothing is asked of P).  What remains is the sum, over the four coordinate
  tiles, of the tile's 1024 products x[n, d] · P[f, d]: a regrouping of the reference's one sum over all 4096
  coordinates, and addition of extended reals is commutative and associative without exception.

  The modules: Spec (the projection as one function), Algebra (the regrouping; the vanishing products), LibWholeStores
  (a load after several stores of a whole buffer), Pieces and Update (what one grid point leaves, as values, and at
  an entry), Blocks (where a point's blocks sit; what the host
  stages), Finite (the precondition gives real entries), Fold (the accumulator over a run of four points), Final
  (from blocks to the whole array: the kernel's run), Reference (the einsum is the projection).  Here: the three
  frames, the empty list of rewrites, and the comparison.
-/
import proofs.«105077_j85710367359546_2_alg».proof.Defs
import proofs.«105077_j85710367359546_2_alg».proof.Proof.Gen.Kernel
import proofs.«105077_j85710367359546_2_alg».proof.Proof.Gen.Kernel.Skeleton
import proofs.«105077_j85710367359546_2_alg».proof.Proof.Gen.Kernel.Launch
import proofs.«105077_j85710367359546_2_alg».proof.Proof.Gen.Kernel.Points
import proofs.«105077_j85710367359546_2_alg».proof.Proof.Gen.Kernel.Frame
import proofs.«105077_j85710367359546_2_alg».proof.Proof.Gen.KernelIdeal
import proofs.«105077_j85710367359546_2_alg».proof.Proof.Gen.KernelIdeal.Skeleton
import proofs.«105077_j85710367359546_2_alg».proof.Proof.Gen.KernelIdeal.Launch
import proofs.«105077_j85710367359546_2_alg».proof.Proof.Gen.KernelIdeal.Points
import proofs.«105077_j85710367359546_2_alg».proof.Proof.Gen.KernelIdeal.Frame
import proofs.«105077_j85710367359546_2_alg».proof.Proof.Gen.ReferenceIdeal
import proofs.«105077_j85710367359546_2_alg».proof.Proof.Gen.KernelIdeal.Value
import proofs.«105077_j85710367359546_2_alg».proof.Proof.Gen.ReferenceIdeal.Run
import proofs.«105077_j85710367359546_2_alg».proof.Proof.Gen.ReferenceIdeal.Read
import proofs.«105077_j85710367359546_2_alg».proof.Proof.Gen.Pre_finite_inputs
import proofs.«105077_j85710367359546_2_alg».proof.Proof.Finite
import proofs.«105077_j85710367359546_2_alg».proof.Proof.Final
import proofs.«105077_j85710367359546_2_alg».proof.Proof.Reference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel (hKernel := Cert.Kernel.Gen.facts) (hPre_finite_inputs := Cert.Pre_finite_inputs.Gen.facts) :=
  fun m ρ _ => Cert.Kernel.Gen.frame m ρ

/-- So does its reading on the extended reals. -/
theorem frame_kernel_ideal : Cert.frame_KernelIdeal (hKernelIdeal := Cert.KernelIdeal.Gen.facts) (hPre_finite_inputs := Cert.Pre_finite_inputs.Gen.facts) :=
  fun m ρ _ => Cert.KernelIdeal.Gen.frame m ρ

/-- The reference is one host operation: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Under the precondition both programs end with the projection of the (agreeing) arguments in their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hx : ∀ c : Dev Cert.KernelIdeal.nD, Cert.Sketch.RealEntries m c := fun c i =>
    Cert.Sketch.real_of_pre (Cert.Sketch.xOf m c) (Cert.Sketch.pOf m c) (hpre c) i
  refine ⟨fun c => Cert.Sketch.proj (Cert.Sketch.xOf m c) (Cert.Sketch.pOf m c), Cert.Sketch.kernel_run m ρ hx, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v0_eq]
  exact Cert.Sketch.reference_eq_proj _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
